-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 96
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S50000, .f32⟩
  | .hbm, ⟨32, _⟩ => ⟨S600000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S_, .f32⟩
  | .hbm, ⟨56, _⟩ => ⟨S600000, .f32⟩
  | .hbm, ⟨57, _⟩ => ⟨S_, .f32⟩
  | .hbm, ⟨58, _⟩ => ⟨S50000, .f32⟩
  | .hbm, ⟨59, _⟩ => ⟨S600000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S600000, .i32⟩
  | .hbm, ⟨71, _⟩ => ⟨S600000, .i1⟩
  | .hbm, ⟨72, _⟩ => ⟨S_, .i32⟩
  | .hbm, ⟨73, _⟩ => ⟨S600000, .i32⟩
  | .hbm, ⟨74, _⟩ => ⟨S600000, .i32⟩
  | .hbm, ⟨75, _⟩ => ⟨S600000, .i32⟩
  | .hbm, ⟨76, _⟩ => ⟨S600000x1, .i32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S600000x1, .i32⟩
  | .hbm, ⟨81, _⟩ => ⟨S50000x128, .f32⟩
  | .hbm, ⟨82, _⟩ => ⟨S_, .f32⟩
  | .hbm, ⟨83, _⟩ => ⟨S600000, .f32⟩
  | .hbm, ⟨84, _⟩ => ⟨S_, .f32⟩
  | .hbm, ⟨85, _⟩ => ⟨S50000, .f32⟩
  | .hbm, ⟨86, _⟩ => ⟨S600000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S50000, .f32⟩
  | .hbm, ⟨32, _⟩ => ⟨S600000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S_, .f32⟩
  | .hbm, ⟨65, _⟩ => ⟨S600000, .f32⟩
  | .hbm, ⟨66, _⟩ => ⟨S_, .f32⟩
  | .hbm, ⟨67, _⟩ => ⟨S50000, .f32⟩
  | .hbm, ⟨68, _⟩ => ⟨S600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x128, .f32⟩
  | .hbm, ⟨93, _⟩ => ⟨S_, .f32⟩
  | .hbm, ⟨94, _⟩ => ⟨S50000x128, .f32⟩
  | .hbm, ⟨95, _⟩ => ⟨S600000x1, .i32⟩
  | .hbm, ⟨96, _⟩ => ⟨S50000x128, .f32⟩
  | .hbm, ⟨97, _⟩ => ⟨S_, .f32⟩
  | .hbm, ⟨98, _⟩ => ⟨S600000, .f32⟩
  | .hbm, ⟨99, _⟩ => ⟨S_, .f32⟩
  | .hbm, ⟨100, _⟩ => ⟨S50000, .f32⟩
  | .hbm, ⟨101, _⟩ => ⟨S600000x1, .i32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x128, .f32⟩
  | .hbm, ⟨108, _⟩ => ⟨S50000x128, .f32⟩
  | .hbm, ⟨109, _⟩ => ⟨S128x128, .f32⟩
  | .hbm, ⟨110, _⟩ => ⟨S50000x128, .f32⟩
  | .hbm, ⟨111, _⟩ => ⟨S128x128, .f32⟩
  | .hbm, ⟨112, _⟩ => ⟨S50000x128, .f32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.Spec.lean ====
/-
  Three stacked graph-convolution layers with mean aggregation, as ONE function of the argument arrays.

  A layer takes node features `h` (50000 × 128), the edge endpoints `src`, `dst` (600000 each), two weight matrices and a
  bias, and returns
      mean(h) · Wlᵀ + h · Wrᵀ + b,
  where row `i` of `mean(h)` is the sum of the rows `h[src e]` over the edges `e` with `dst e = i`, divided by the number of
  such edges (or by 1 when there is none). The first layer is followed by `max(·, 0)`.

  The aggregation is kept as an opaque function `agg`: both programs apply the same host operations there, so nothing in
  this proof looks inside it. The dense part is read index by index: entry `(r, c)` is
      Σₖ mean[r, k] · Wl[c, k] + Σₖ h[r, k] · Wr[c, k] + b[c].
-/
import proofs.«163306_j17205638988431_1_alg».proof.Proof.Gen.ReferenceIdeal
import proofs.«163306_j17205638988431_1_alg».proof.Proof.LibDotSum
import Idealize.ShloMosaic.Lib.Pipeline.Value
import Idealize.ShloMosaic.Lib.ValueIdx
import Idealize.ShloMosaic.PureOps.Ideal.Laws

noncomputable section

open scoped BigOperators

namespace Cert.Sage

open Cert.ReferenceIdeal Cert.ReferenceIdeal.Gen Idealize.ShloMosaic Idealize.ShloMosaic.ValueIdx

section Generic
variable {F : FTy → Type} [FloatOps F]

/-- Row `a` of the 2 × 600000 endpoint table as a vector of 600000 node numbers: row 0 holds the sources. -/
def srcOf (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- Row 1 holds the destinations. -/
def dstOf (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- Mean aggregation over incoming edges: gather the source rows (a negative source number counted from the end), add each
    into its destination row, and divide by the number of incoming edges, at least 1. -/
def agg (h : (⟨S50000x128, .f32⟩ : BufTy).Contents (Elt F)) (src dst : (⟨S600000, .i32⟩ : BufTy).Contents (Elt F)) :
    (⟨S50000x128, .f32⟩ : BufTy).Contents (Elt F) :=
  Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 dst) (Host.gather gather_S50000x128_S600000x1_S600000x128_1_0_n_n_0_1_1128 h (broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)))) (broadcastInDim S50000x128 ![0, 1] bcast_S50000x1_S50000x128_0_1 (broadcastInDim S50000x1 ![0] bcast_S50000_S50000x1_0 (maximumf (Host.scatterAdd scatter_S50000_S600000x1_S600000_n_0_0_1 (broadcastInDim S50000 ![] bcast_S_S50000 (constant S_ .f32 0x00000000#32)) (broadcastInDim S600000x1 ![0] bcast_S600000_S600000x1_0 dst) (broadcastInDim S600000 ![] bcast_S_S600000 (constant S_ .f32 0x3F800000#32))) (broadcastInDim S50000 ![] bcast_S_S50000 (constant S_ .f32 0x3F800000#32)))))

/-- The dense part of a layer with the bias already a 1 × 128 row: `mean · Wlᵀ + h · Wrᵀ + b`. -/
def dense2 (mean h : (⟨S50000x128, .f32⟩ : BufTy).Contents (Elt F)) (wl wr : (⟨S128x128, .f32⟩ : BufTy).Contents (Elt F))
    (b2 : (⟨S1x128, .f32⟩ : BufTy).Contents (Elt F)) : (⟨S50000x128, .f32⟩ : BufTy).Contents (Elt F) :=
  addf (addf (Host.dotGeneral dot_S50000x128_S128x128_S50000x128_1_0_0_1_n_n none mean (transpose S128x128 [1, 0] wl transposes_S128x128_S128x128_1_0)) (Host.dotGeneral dot_S50000x128_S128x128_S50000x128_1_0_0_1_n_n none h (transpose S128x128 [1, 0] wr transposes_S128x128_S128x128_1_0))) (broadcastInDim S50000x128 ![0, 1] bcast_S1x128_S50000x128_0_1 b2)

/-- The bias vector as a 1 × 128 row. -/
def biasRow (b : (⟨S128, .f32⟩ : BufTy).Contents (Elt F)) : (⟨S1x128, .f32⟩ : BufTy).Contents (Elt F) :=
  broadcastInDim S1x128 ![1] bcast_S128_S1x128_1 b

/-- `max(·, 0)`, entry by entry. -/
def relu (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))

/-- One layer on features `h`: the dense part of the aggregated and the plain features. -/
def layer (h : (⟨S50000x128, .f32⟩ : BufTy).Contents (Elt F)) (ei : (⟨S2x600000, .i32⟩ : BufTy).Contents (Elt F))
    (wl wr : (⟨S128x128, .f32⟩ : BufTy).Contents (Elt F)) (b : (⟨S128, .f32⟩ : BufTy).Contents (Elt F)) :
    (⟨S50000x128, .f32⟩ : BufTy).Contents (Elt F) :=
  dense2 (agg h (srcOf ei) (dstOf ei)) h wl wr (biasRow b)

/-- The three layers, `max(·, 0)` after the first. -/
def net (x : (⟨S50000x128, .f32⟩ : BufTy).Contents (Elt F)) (ei : (⟨S2x600000, .i32⟩ : BufTy).Contents (Elt F))
    (wl1 wr1 : (⟨S128x128, .f32⟩ : BufTy).Contents (Elt F)) (b1 : (⟨S128, .f32⟩ : BufTy).Contents (Elt F))
    (wl2 wr2 : (⟨S128x128, .f32⟩ : BufTy).Contents (Elt F)) (b2 : (⟨S128, .f32⟩ : BufTy).Contents (Elt F))
    (wl3 wr3 : (⟨S128x128, .f32⟩ : BufTy).Contents (Elt F)) (b3 : (⟨S128, .f32⟩ : BufTy).Contents (Elt F)) :
    (⟨S50000x128, .f32⟩ : BufTy).Contents (Elt F) :=
  layer (layer (relu (layer x ei wl1 wr1 b1)) ei wl2 wr2 b2) ei wl3 wr3 b3

end Generic

/-! ## The dense part read at an index, on the extended reals -/

/-- The operand indices of the 50000 × 128 by 128 × 128 product, coordinate by coordinate: at result `(r, c)` and contraction
    index `k` the left operand is read at `(r, k)` and the right at `(k, c)`. -/
theorem dotL0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dotL1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem dotR0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem dotR1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- A 128 × 128 matrix transposed, read at `(k, c)`, is the matrix at `(c, k)`. -/
theorem transpose_at {α : Type} (w : S128x128.Idx → α) (k c : Fin 128) :
    transpose S128x128 [1, 0] w transposes_S128x128_S128x128_1_0 (ix2 k c) = w (ix2 c k) :=
  transpose_apply [1, 0] w transposes_S128x128_S128x128_1_0 (ix2 k c) (ix2 c k) (fun b => match b with
    | ⟨0, _⟩ => rfl
    | ⟨1, _⟩ => rfl)

/-- The product with a transposed weight matrix at `(r, c)`: the sum over `k` of `a[r, k] · w[c, k]`. -/
theorem dotT_at (a : FVec Ideal S50000x128 .f32) (w : FVec Ideal S128x128 .f32) (i : S50000x128.Idx) :
    Host.dotGeneral dot_S50000x128_S128x128_S50000x128_1_0_0_1_n_n none a (transpose S128x128 [1, 0] w transposes_S128x128_S128x128_1_0) i
      = ∑ k : Fin 128, a (ix2 (i 0) k) * w (ix2 (i 1) k) := by
  simp only [Host.dotGeneral]
  rw [Ideal.dotGeneral_apply]
  refine (Cert.LibDotSum.plain dot_S50000x128_S128x128_S50000x128_1_0_0_1_n_n rfl rfl dotL0 dotL1 dotR0 dotR1
    (fun l r => a l * transpose S128x128 [1, 0] w transposes_S128x128_S128x128_1_0 r) i).trans ?_
  refine Finset.sum_congr rfl fun k _ => ?_
  exact congrArg (a (ix2 (i 0) k) * ·) (transpose_at w k (i 1))

/-- The bias row spread over the 50000 rows, read at `(r, c)`: the row's entry `c`. -/
theorem biasBcast_at {α : Type} (b2 : S1x128.Idx → α) (i : S50000x128.Idx) :
    broadcastInDim S50000x128 ![0, 1] bcast_S1x128_S50000x128_0_1 b2 i = b2 (ix2 0 (i 1)) :=
  broadcastInDim_apply _ bcast_S1x128_S50000x128_0_1 b2 i (ix2 0 (i 1)) (fun a => match a with
    | ⟨0, _⟩ => rfl
    | ⟨1, _⟩ => rfl)

/-- THE DENSE PART AT AN INDEX: entry `(r, c)` is `Σₖ mean[r, k] · Wl[c, k] + Σₖ h[r, k] · Wr[c, k] + b[c]`. -/
theorem dense2_at (mean h : FVec Ideal S50000x128 .f32) (wl wr : FVec Ideal S128x128 .f32) (b2 : FVec Ideal S1x128 .f32)
    (i : S50000x128.Idx) :
    dense2 (F := Ideal) mean h wl wr b2 i
      = (∑ k : Fin 128, mean (ix2 (i 0) k) * wl (ix2 (i 1) k)) + (∑ k : Fin 128, h (ix2 (i 0) k) * wr (ix2 (i 1) k))
        + b2 (ix2 0 (i 1)) := by
  unfold dense2
  rw [addf_apply, addf_apply, dotT_at, dotT_at, biasBcast_at]

/-- `max(·, 0)` at an index. -/
theorem relu_at (h : FVec Ideal S50000x128 .f32) (i : S50000x128.Idx) : relu (F := Ideal) h i = max (h i) 0 := by
  unfold relu
  rw [maximumf_apply]
  show max (h i) (Ideal.ofBits .f32 0x00000000#32) = _
  rw [Ideal.ofBits_zero_f32]

end Cert.Sage

end
-- ==== Proof.Region0.lean ====
/-
  Region 0 of the kernel program, as a whole-array function of the arrays it finds.

  The region runs over ten grid points; point `t` handles the rows `5000·t … 5000·t + 4999`. Its body takes the block of
  aggregated features and the block of plain features for those rows, the two whole weight matrices and the bias row, and
  stores, at row `p` and column `q` of the block,
      Σₖ mean[p, k] · Wl[q, k] + Σₖ h[p, k] · Wr[q, k] + b[q], then the maximum with 0
  (the products are taken into a zero accumulator; narrowing the operands to sixteen bits does nothing on the extended reals).
  Row `p` of block `t` is row `5000·t + p` of the array, the weight and bias blocks are the whole arrays, and the ten blocks
  cover all 50000 rows, so after the region the output array is the dense layer followed by max(·, 0) of the arrays the region
  found, index by index.
-/
import proofs.«163306_j17205638988431_1_alg».proof.Proof.Gen.KernelIdeal.Frame
import proofs.«163306_j17205638988431_1_alg».proof.Proof.Spec
import proofs.«163306_j17205638988431_1_alg».proof.Proof.LibDotSum
import Idealize.ShloMosaic.Lib.Pipeline.Value
import Idealize.ShloMosaic.Lib.ValueIdx
import Idealize.ShloMosaic.PureOps.Ideal.Laws

set_option maxRecDepth 16384

noncomputable section

open scoped BigOperators

namespace Cert.Sage.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The block product read at an index -/

/-- The operand indices of the 5000 × 128 by 128 × 128 block product, coordinate by coordinate: at result `(p, q)` and
    contraction index `k` the left operand is read at `(p, k)` and the right at `(k, q)`. -/
theorem dotL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dotR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dotR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with a transposed weight matrix, into a zero accumulator, at `(p, q)`: the sum over `k` of
    `a[p, k] · w[q, k]`. -/
theorem matT_at (a : FVec Ideal S5000x128 .bf16) (w : FVec Ideal S128x128 .bf16) (p : Fin 5000) (q : Fin 128) :
    matmul dot_S5000x128_S128x128_S5000x128_1_0_0_1_n_n none a (transpose S128x128 [1, 0] w transposes_S128x128_p1_0_S128x128)
        (constant S5000x128 .f32 0x00000000#32) (ix2 p q)
      = ∑ k : Fin 128, a (ix2 p k) * w (ix2 q k) := by
  simp only [matmul]
  rw [Ideal.matmul_constant_zero_apply]
  refine (Cert.LibDotSum.plain dot_S5000x128_S128x128_S5000x128_1_0_0_1_n_n rfl rfl dotL0 dotL1 dotR0 dotR1
    (fun l r => a l * transpose S128x128 [1, 0] w transposes_S128x128_p1_0_S128x128 r) (ix2 p q)).trans ?_
  refine Finset.sum_congr rfl fun k _ => ?_
  refine congrArg (a (ix2 p k) * ·) ?_
  exact transpose_apply [1, 0] w transposes_S128x128_p1_0_S128x128 (ix2 k q) (ix2 q k) (fun b => match b with
    | ⟨0, _⟩ => rfl
    | ⟨1, _⟩ => rfl)

/-- The bias row spread over the block's rows, at `(p, q)`: the row's entry `q`. -/
theorem biasTo_at (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => rfl
    | ⟨1, _⟩ => rfl)

/-- WHAT THE BODY STORES at `(p, q)`, from the blocks it loaded. -/
theorem pay_at (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q)
      = max ((∑ k : Fin 128, x0 (ix2 p k) * x2 (ix2 q k)) + (∑ k : Fin 128, x1 (ix2 p k) * x3 (ix2 q k)) + x4 (ix2 0 q)) 0 := by
  unfold k0_pay1
  simp only [shapeCast_self]
  show max (matmul dot_S5000x128_S128x128_S5000x128_1_0_0_1_n_n none (truncf .bf16 x0 bitsLt_bf16_f32) (transpose S128x128 [1, 0] (truncf .bf16 x2 bitsLt_bf16_f32) transposes_S128x128_p1_0_S128x128) (constant S5000x128 .f32 0x00000000#32) (ix2 p q)
        + matmul dot_S5000x128_S128x128_S5000x128_1_0_0_1_n_n none (truncf .bf16 x1 bitsLt_bf16_f32) (transpose S128x128 [1, 0] (truncf .bf16 x3 bitsLt_bf16_f32) transposes_S128x128_p1_0_S128x128) (constant S5000x128 .f32 0x00000000#32) (ix2 p q)
        + broadcastTo S5000x128 x4 broadcasts_S1x128_S5000x128 (ix2 p q)) (Ideal.ofBits .f32 0x00000000#32) = _
  rw [matT_at, matT_at, biasTo_at, Ideal.ofBits_zero_f32]
  rfl

/-! ## From the blocks to the array -/

section
variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the two feature windows and the output move together along the
    rows, one block per point; the weights and the bias stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The region's output array as one function of the arrays the region finds. -/
abbrev G (c : Dev nD) : S50000x128.Idx → Elt Ideal .f32 :=
  Cert.Sage.relu (Cert.Sage.dense2 (F := Ideal) (V c main_v22) (V c main_arg0) (V c main_arg2) (V c main_arg3) (V c main_v23))

/-- WHAT POINT `t` WRITES BACK is block `t` of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, q, rfl⟩ : ∃ (p : Fin 5000) (q : Fin 128), y = ix2 p q := ⟨y 0, y 1, eq_ix2 y⟩
  refine (pay_at (iblk0 V c 0 t) (iblk0 V c 1 t) (iblk0 V c 2 t) (iblk0 V c 3 t) (iblk0 V c 4 t) p q).trans ?_
  show _ = G V c (((cfg0.win 5).blk t).view.emb (ix2 p q))
  unfold G
  rw [Cert.Sage.relu_at, Cert.Sage.dense2_at]
  -- each block entry is the array's entry at the block's place
  have r0 : ∀ k : Fin 128, iblk0 V c 0 t (ix2 p k) = V c main_v22 (ix2 ((((cfg0.win 5).blk t).view.emb (ix2 p q)) 0) k) := fun k => by
    show V c main_v22 (((cfg0.win 0).blk t).view.emb (ix2 p k)) = _
    refine congrArg (V c main_v22) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have r1 : ∀ k : Fin 128, iblk0 V c 1 t (ix2 p k) = V c main_arg0 (ix2 ((((cfg0.win 5).blk t).view.emb (ix2 p q)) 0) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  have r2 : ∀ k : Fin 128, iblk0 V c 2 t (ix2 q k) = V c main_arg2 (ix2 ((((cfg0.win 5).blk t).view.emb (ix2 p q)) 1) k) := fun k => by
    show V c main_arg2 (((cfg0.win 2).blk t).view.emb (ix2 q k)) = _
    refine congrArg (V c main_arg2) (funext fun a => Fin.ext ?_)
    match a with
    | ⟨0, _⟩ => show win0_2.index t (0 : Fin 2) * 128 + 1 * q.val = win0_5.index t (1 : Fin 2) * 128 + 1 * q.val; omega
    | ⟨1, _⟩ => show win0_2.index t (1 : Fin 2) * 128 + 1 * k.val = k.val; omega
  have r3 : ∀ k : Fin 128, iblk0 V c 3 t (ix2 q k) = V c main_arg3 (ix2 ((((cfg0.win 5).blk t).view.emb (ix2 p q)) 1) k) := fun k => by
    show V c main_arg3 (((cfg0.win 3).blk t).view.emb (ix2 q k)) = _
    refine congrArg (V c main_arg3) (funext fun a => Fin.ext ?_)
    match a with
    | ⟨0, _⟩ => show win0_3.index t (0 : Fin 2) * 128 + 1 * q.val = win0_5.index t (1 : Fin 2) * 128 + 1 * q.val; omega
    | ⟨1, _⟩ => show win0_3.index t (1 : Fin 2) * 128 + 1 * k.val = k.val; omega
  have r4 : iblk0 V c 4 t (ix2 0 q) = V c main_v23 (ix2 0 ((((cfg0.win 5).blk t).view.emb (ix2 p q)) 1)) := by
    show V c main_v23 (((cfg0.win 4).blk t).view.emb (ix2 0 q)) = _
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega
  simp only [r0, r1, r2, r3, r4]

/-- An index of the output array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every index of the output array lies in some point's block: row `r` in the block of point `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < grid0.N := by rw [N_0]; omega
  obtain ⟨e00, e01, e10, e11, e20, e21, e30, e31, e40, e41, e50, e51⟩ := idx_facts ⟨(i 0).val / 5000, hN⟩
  refine ⟨⟨(i 0).val / 5000, hN⟩, flush0_5 _, ?_⟩
  rw [mem_blk]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e51]; omega

/-- THE OUTPUT ARRAY after the region: the dense layer followed by max(·, 0) of the arrays the region found. -/
theorem final (c : Dev nD) : (dat0 (F := Ideal) V c).arrAt 5 cfg0.N = G V c :=
  (dat0 V c).arrAt_eq_of_cover 5 (G V c) (fun t _ => flushed_eq V c t) cover

end

end Cert.Sage.Region0

end
-- ==== Proof.Region1.lean ====
/-
  Region 1 of the kernel program, as a whole-array function of the arrays it finds.

  The region runs over ten grid points; point `t` handles the rows `5000·t … 5000·t + 4999`. Its body takes the block of
  aggregated features and the block of plain features for those rows, the two whole weight matrices and the bias row, and
  stores, at row `p` and column `q` of the block,
      Σₖ mean[p, k] · Wl[q, k] + Σₖ h[p, k] · Wr[q, k] + b[q]
  (the products are taken into a zero accumulator; narrowing the operands to sixteen bits does nothing on the extended reals).
  Row `p` of block `t` is row `5000·t + p` of the array, the weight and bias blocks are the whole arrays, and the ten blocks
  cover all 50000 rows, so after the region the output array is the dense layer of the arrays the region
  found, index by index.
-/
import proofs.«163306_j17205638988431_1_alg».proof.Proof.Gen.KernelIdeal.Frame
import proofs.«163306_j17205638988431_1_alg».proof.Proof.Spec
import proofs.«163306_j17205638988431_1_alg».proof.Proof.LibDotSum
import Idealize.ShloMosaic.Lib.Pipeline.Value
import Idealize.ShloMosaic.Lib.ValueIdx
import Idealize.ShloMosaic.PureOps.Ideal.Laws

set_option maxRecDepth 16384

noncomputable section

open scoped BigOperators

namespace Cert.Sage.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The block product read at an index -/

/-- The operand indices of the 5000 × 128 by 128 × 128 block product, coordinate by coordinate: at result `(p, q)` and
    contraction index `k` the left operand is read at `(p, k)` and the right at `(k, q)`. -/
theorem dotL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dotR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dotR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with a transposed weight matrix, into a zero accumulator, at `(p, q)`: the sum over `k` of
    `a[p, k] · w[q, k]`. -/
theorem matT_at (a : FVec Ideal S5000x128 .bf16) (w : FVec Ideal S128x128 .bf16) (p : Fin 5000) (q : Fin 128) :
    matmul dot_S5000x128_S128x128_S5000x128_1_0_0_1_n_n none a (transpose S128x128 [1, 0] w transposes_S128x128_p1_0_S128x128)
        (constant S5000x128 .f32 0x00000000#32) (ix2 p q)
      = ∑ k : Fin 128, a (ix2 p k) * w (ix2 q k) := by
  simp only [matmul]
  rw [Ideal.matmul_constant_zero_apply]
  refine (Cert.LibDotSum.plain dot_S5000x128_S128x128_S5000x128_1_0_0_1_n_n rfl rfl dotL0 dotL1 dotR0 dotR1
    (fun l r => a l * transpose S128x128 [1, 0] w transposes_S128x128_p1_0_S128x128 r) (ix2 p q)).trans ?_
  refine Finset.sum_congr rfl fun k _ => ?_
  refine congrArg (a (ix2 p k) * ·) ?_
  exact transpose_apply [1, 0] w transposes_S128x128_p1_0_S128x128 (ix2 k q) (ix2 q k) (fun b => match b with
    | ⟨0, _⟩ => rfl
    | ⟨1, _⟩ => rfl)

/-- The bias row spread over the block's rows, at `(p, q)`: the row's entry `q`. -/
theorem biasTo_at (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => rfl
    | ⟨1, _⟩ => rfl)

/-- WHAT THE BODY STORES at `(p, q)`, from the blocks it loaded. -/
theorem pay_at (x0 x1 : FVec Ideal S5000x128 .f32) (x2 x3 : FVec Ideal S128x128 .f32) (x4 : FVec Ideal S1x128 .f32)
    (p : Fin 5000) (q : Fin 128) :
    k1_pay1 (F := Ideal) x0 x1 x2 x3 x4 (ix2 p q)
      = (∑ k : Fin 128, x0 (ix2 p k) * x2 (ix2 q k)) + (∑ k : Fin 128, x1 (ix2 p k) * x3 (ix2 q k)) + x4 (ix2 0 q) := by
  unfold k1_pay1
  simp only [shapeCast_self]
  show matmul dot_S5000x128_S128x128_S5000x128_1_0_0_1_n_n none (truncf .bf16 x0 bitsLt_bf16_f32) (transpose S128x128 [1, 0] (truncf .bf16 x2 bitsLt_bf16_f32) transposes_S128x128_p1_0_S128x128) (constant S5000x128 .f32 0x00000000#32) (ix2 p q)
        + matmul dot_S5000x128_S128x128_S5000x128_1_0_0_1_n_n none (truncf .bf16 x1 bitsLt_bf16_f32) (transpose S128x128 [1, 0] (truncf .bf16 x3 bitsLt_bf16_f32) transposes_S128x128_p1_0_S128x128) (constant S5000x128 .f32 0x00000000#32) (ix2 p q)
        + broadcastTo S5000x128 x4 broadcasts_S1x128_S5000x128 (ix2 p q) = _
  rw [matT_at, matT_at, biasTo_at]
  rfl

/-! ## From the blocks to the array -/

section
variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the two feature windows and the output move together along the
    rows, one block per point; the weights and the bias stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The region's output array as one function of the arrays the region finds. -/
abbrev G (c : Dev nD) : S50000x128.Idx → Elt Ideal .f32 :=
  Cert.Sage.dense2 (F := Ideal) (V c main_v43) (V c main_v24) (V c main_arg5) (V c main_arg6) (V c main_v44)

/-- WHAT POINT `t` WRITES BACK is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, q, rfl⟩ : ∃ (p : Fin 5000) (q : Fin 128), y = ix2 p q := ⟨y 0, y 1, eq_ix2 y⟩
  refine (pay_at (iblk1 V c 0 t) (iblk1 V c 1 t) (iblk1 V c 2 t) (iblk1 V c 3 t) (iblk1 V c 4 t) p q).trans ?_
  show _ = G V c (((cfg1.win 5).blk t).view.emb (ix2 p q))
  unfold G
  rw [Cert.Sage.dense2_at]
  -- each block entry is the array's entry at the block's place
  have r0 : ∀ k : Fin 128, iblk1 V c 0 t (ix2 p k) = V c main_v43 (ix2 ((((cfg1.win 5).blk t).view.emb (ix2 p q)) 0) k) := fun k => by
    show V c main_v43 (((cfg1.win 0).blk t).view.emb (ix2 p k)) = _
    refine congrArg (V c main_v43) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have r1 : ∀ k : Fin 128, iblk1 V c 1 t (ix2 p k) = V c main_v24 (ix2 ((((cfg1.win 5).blk t).view.emb (ix2 p q)) 0) k) := fun k => by
    show V c main_v24 (((cfg1.win 1).blk t).view.emb (ix2 p k)) = _
    refine congrArg (V c main_v24) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  have r2 : ∀ k : Fin 128, iblk1 V c 2 t (ix2 q k) = V c main_arg5 (ix2 ((((cfg1.win 5).blk t).view.emb (ix2 p q)) 1) k) := fun k => by
    show V c main_arg5 (((cfg1.win 2).blk t).view.emb (ix2 q k)) = _
    refine congrArg (V c main_arg5) (funext fun a => Fin.ext ?_)
    match a with
    | ⟨0, _⟩ => show win1_2.index t (0 : Fin 2) * 128 + 1 * q.val = win1_5.index t (1 : Fin 2) * 128 + 1 * q.val; omega
    | ⟨1, _⟩ => show win1_2.index t (1 : Fin 2) * 128 + 1 * k.val = k.val; omega
  have r3 : ∀ k : Fin 128, iblk1 V c 3 t (ix2 q k) = V c main_arg6 (ix2 ((((cfg1.win 5).blk t).view.emb (ix2 p q)) 1) k) := fun k => by
    show V c main_arg6 (((cfg1.win 3).blk t).view.emb (ix2 q k)) = _
    refine congrArg (V c main_arg6) (funext fun a => Fin.ext ?_)
    match a with
    | ⟨0, _⟩ => show win1_3.index t (0 : Fin 2) * 128 + 1 * q.val = win1_5.index t (1 : Fin 2) * 128 + 1 * q.val; omega
    | ⟨1, _⟩ => show win1_3.index t (1 : Fin 2) * 128 + 1 * k.val = k.val; omega
  have r4 : iblk1 V c 4 t (ix2 0 q) = V c main_v44 (ix2 0 ((((cfg1.win 5).blk t).view.emb (ix2 p q)) 1)) := by
    show V c main_v44 (((cfg1.win 4).blk t).view.emb (ix2 0 q)) = _
    refine congrArg (V c main_v44) (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  simp only [r0, r1, r2, r3, r4]

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Every index of the output array lies in some point's block: row `r` in the block of point `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < grid1.N := by rw [N_1]; omega
  obtain ⟨e00, e01, e10, e11, e20, e21, e30, e31, e40, e41, e50, e51⟩ := idx_facts ⟨(i 0).val / 5000, hN⟩
  refine ⟨⟨(i 0).val / 5000, hN⟩, flush1_5 _, ?_⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    rw [e51]; omega

/-- THE OUTPUT ARRAY after the region: the dense layer of the arrays the region found. -/
theorem final (c : Dev nD) : (dat1 (F := Ideal) V c).arrAt 5 cfg1.N = G V c :=
  (dat1 V c).arrAt_eq_of_cover 5 (G V c) (fun t _ => flushed_eq V c t) cover

end

end Cert.Sage.Region1

end
-- ==== Proof.Region2.lean ====
/-
  Region 2 of the kernel program, as a whole-array function of the arrays it finds.

  The region runs over ten grid points; point `t` handles the rows `5000·t … 5000·t + 4999`. Its body takes the block of
  aggregated features and the block of plain features for those rows, the two whole weight matrices and the bias row, and
  stores, at row `p` and column `q` of the block,
      Σₖ mean[p, k] · Wl[q, k] + Σₖ h[p, k] · Wr[q, k] + b[q]
  (the products are taken into a zero accumulator; narrowing the operands to sixteen bits does nothing on the extended reals).
  Row `p` of block `t` is row `5000·t + p` of the array, the weight and bias blocks are the whole arrays, and the ten blocks
  cover all 50000 rows, so after the region the output array is the dense layer of the arrays the region
  found, index by index.
-/
import proofs.«163306_j17205638988431_1_alg».proof.Proof.Gen.KernelIdeal.Frame
import proofs.«163306_j17205638988431_1_alg».proof.Proof.Spec
import proofs.«163306_j17205638988431_1_alg».proof.Proof.LibDotSum
import Idealize.ShloMosaic.Lib.Pipeline.Value
import Idealize.ShloMosaic.Lib.ValueIdx
import Idealize.ShloMosaic.PureOps.Ideal.Laws

set_option maxRecDepth 16384

noncomputable section

open scoped BigOperators

namespace Cert.Sage.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

/-! ## The block product read at an index -/

/-- The operand indices of the 5000 × 128 by 128 × 128 block product, coordinate by coordinate: at result `(p, q)` and
    contraction index `k` the left operand is read at `(p, k)` and the right at `(k, q)`. -/
theorem dotL0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dotL1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dotR0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dotR1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product with a transposed weight matrix, into a zero accumulator, at `(p, q)`: the sum over `k` of
    `a[p, k] · w[q, k]`. -/
theorem matT_at (a : FVec Ideal S5000x128 .bf16) (w : FVec Ideal S128x128 .bf16) (p : Fin 5000) (q : Fin 128) :
    matmul dot_S5000x128_S128x128_S5000x128_1_0_0_1_n_n none a (transpose S128x128 [1, 0] w transposes_S128x128_p1_0_S128x128)
        (constant S5000x128 .f32 0x00000000#32) (ix2 p q)
      = ∑ k : Fin 128, a (ix2 p k) * w (ix2 q k) := by
  simp only [matmul]
  rw [Ideal.matmul_constant_zero_apply]
  refine (Cert.LibDotSum.plain dot_S5000x128_S128x128_S5000x128_1_0_0_1_n_n rfl rfl dotL0 dotL1 dotR0 dotR1
    (fun l r => a l * transpose S128x128 [1, 0] w transposes_S128x128_p1_0_S128x128 r) (ix2 p q)).trans ?_
  refine Finset.sum_congr rfl fun k _ => ?_
  refine congrArg (a (ix2 p k) * ·) ?_
  exact transpose_apply [1, 0] w transposes_S128x128_p1_0_S128x128 (ix2 k q) (ix2 q k) (fun b => match b with
    | ⟨0, _⟩ => rfl
    | ⟨1, _⟩ => rfl)

/-- The bias row spread over the block's rows, at `(p, q)`: the row's entry `q`. -/
theorem biasTo_at (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => rfl
    | ⟨1, _⟩ => rfl)

/-- WHAT THE BODY STORES at `(p, q)`, from the blocks it loaded. -/
theorem pay_at (x0 x1 : FVec Ideal S5000x128 .f32) (x2 x3 : FVec Ideal S128x128 .f32) (x4 : FVec Ideal S1x128 .f32)
    (p : Fin 5000) (q : Fin 128) :
    k2_pay1 (F := Ideal) x0 x1 x2 x3 x4 (ix2 p q)
      = (∑ k : Fin 128, x0 (ix2 p k) * x2 (ix2 q k)) + (∑ k : Fin 128, x1 (ix2 p k) * x3 (ix2 q k)) + x4 (ix2 0 q) := by
  unfold k2_pay1
  simp only [shapeCast_self]
  show matmul dot_S5000x128_S128x128_S5000x128_1_0_0_1_n_n none (truncf .bf16 x0 bitsLt_bf16_f32) (transpose S128x128 [1, 0] (truncf .bf16 x2 bitsLt_bf16_f32) transposes_S128x128_p1_0_S128x128) (constant S5000x128 .f32 0x00000000#32) (ix2 p q)
        + matmul dot_S5000x128_S128x128_S5000x128_1_0_0_1_n_n none (truncf .bf16 x1 bitsLt_bf16_f32) (transpose S128x128 [1, 0] (truncf .bf16 x3 bitsLt_bf16_f32) transposes_S128x128_p1_0_S128x128) (constant S5000x128 .f32 0x00000000#32) (ix2 p q)
        + broadcastTo S5000x128 x4 broadcasts_S1x128_S5000x128 (ix2 p q) = _
  rw [matT_at, matT_at, biasTo_at]
  rfl

/-! ## From the blocks to the array -/

section
variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the two feature windows and the output move together along the
    rows, one block per point; the weights and the bias stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The region's output array as one function of the arrays the region finds. -/
abbrev G (c : Dev nD) : S50000x128.Idx → Elt Ideal .f32 :=
  Cert.Sage.dense2 (F := Ideal) (V c main_v64) (V c main_v45) (V c main_arg8) (V c main_arg9) (V c main_v65)

/-- WHAT POINT `t` WRITES BACK is block `t` of `G`. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  obtain ⟨p, q, rfl⟩ : ∃ (p : Fin 5000) (q : Fin 128), y = ix2 p q := ⟨y 0, y 1, eq_ix2 y⟩
  refine (pay_at (iblk2 V c 0 t) (iblk2 V c 1 t) (iblk2 V c 2 t) (iblk2 V c 3 t) (iblk2 V c 4 t) p q).trans ?_
  show _ = G V c (((cfg2.win 5).blk t).view.emb (ix2 p q))
  unfold G
  rw [Cert.Sage.dense2_at]
  -- each block entry is the array's entry at the block's place
  have r0 : ∀ k : Fin 128, iblk2 V c 0 t (ix2 p k) = V c main_v64 (ix2 ((((cfg2.win 5).blk t).view.emb (ix2 p q)) 0) k) := fun k => by
    show V c main_v64 (((cfg2.win 0).blk t).view.emb (ix2 p k)) = _
    refine congrArg (V c main_v64) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have r1 : ∀ k : Fin 128, iblk2 V c 1 t (ix2 p k) = V c main_v45 (ix2 ((((cfg2.win 5).blk t).view.emb (ix2 p q)) 0) k) := fun k => by
    show V c main_v45 (((cfg2.win 1).blk t).view.emb (ix2 p k)) = _
    refine congrArg (V c main_v45) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  have r2 : ∀ k : Fin 128, iblk2 V c 2 t (ix2 q k) = V c main_arg8 (ix2 ((((cfg2.win 5).blk t).view.emb (ix2 p q)) 1) k) := fun k => by
    show V c main_arg8 (((cfg2.win 2).blk t).view.emb (ix2 q k)) = _
    refine congrArg (V c main_arg8) (funext fun a => Fin.ext ?_)
    match a with
    | ⟨0, _⟩ => show win2_2.index t (0 : Fin 2) * 128 + 1 * q.val = win2_5.index t (1 : Fin 2) * 128 + 1 * q.val; omega
    | ⟨1, _⟩ => show win2_2.index t (1 : Fin 2) * 128 + 1 * k.val = k.val; omega
  have r3 : ∀ k : Fin 128, iblk2 V c 3 t (ix2 q k) = V c main_arg9 (ix2 ((((cfg2.win 5).blk t).view.emb (ix2 p q)) 1) k) := fun k => by
    show V c main_arg9 (((cfg2.win 3).blk t).view.emb (ix2 q k)) = _
    refine congrArg (V c main_arg9) (funext fun a => Fin.ext ?_)
    match a with
    | ⟨0, _⟩ => show win2_3.index t (0 : Fin 2) * 128 + 1 * q.val = win2_5.index t (1 : Fin 2) * 128 + 1 * q.val; omega
    | ⟨1, _⟩ => show win2_3.index t (1 : Fin 2) * 128 + 1 * k.val = k.val; omega
  have r4 : iblk2 V c 4 t (ix2 0 q) = V c main_v65 (ix2 0 ((((cfg2.win 5).blk t).view.emb (ix2 p q)) 1)) := by
    show V c main_v65 (((cfg2.win 4).blk t).view.emb (ix2 0 q)) = _
    refine congrArg (V c main_v65) (funext fun a => Fin.ext ?_)
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega
  simp only [r0, r1, r2, r3, r4]

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v66).slice (win2_5.rect t)).set ↔ _
  rw [View.set_slice_whole, Rect.mem_set_unit]
  exact Iff.rfl

/-- Every index of the output array lies in some point's block: row `r` in the block of point `r / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 5000 < grid2.N := by rw [N_2]; omega
  obtain ⟨e00, e01, e10, e11, e20, e21, e30, e31, e40, e41, e50, e51⟩ := idx_facts ⟨(i 0).val / 5000, hN⟩
  refine ⟨⟨(i 0).val / 5000, hN⟩, flush2_5 _, ?_⟩
  rw [mem_blk]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hN⟩ (1 : Fin 2) * 128 ≤ (i 1).val ∧ (i 1).val < win2_5.index ⟨(i 0).val / 5000, hN⟩ (1 : Fin 2) * 128 + 128
    rw [e51]; omega

/-- THE OUTPUT ARRAY after the region: the dense layer of the arrays the region found. -/
theorem final (c : Dev nD) : (dat2 (F := Ideal) V c).arrAt 5 cfg2.N = G V c :=
  (dat2 V c).arrAt_eq_of_cover 5 (G V c) (fun t _ => flushed_eq V c t) cover

end

end Cert.Sage.Region2

end
-- ==== Proof.LibReshapeRow.lean ====
import Idealize.ShloMosaic.Lib.Pipeline.Value
import Idealize.ShloMosaic.Lib.ValueIdx
import Idealize.ShloMosaic.Lib.ValueLayout

/-!
# A vector as a one-row matrix: reshape and broadcast agree

Two ways of writing a vector `x` of `n` entries as a `1 × n` matrix: reshaping it (same entries in row-major order), and
broadcasting it along axis 1 (entry `(u, i)` reads `x i`). The only row is row `0`, whose row-major position of column
`i` is `0 * n + i = i`, so both arrays have `x i` at `(u, i)`.
-/

namespace Idealize.ShloMosaic

open Idealize.ShloMosaic.ValueIdx

/-- A vector of `n` entries reshaped to a `1 × n` row is the same array as the vector broadcast along axis 1 into a
    `1 × n` row: entry `(u, i)` of either is entry `i` of the vector. -/
theorem shapeCast_row_eq_broadcastInDim {α : Type} {n : Nat} (x : (⟨1, ![n]⟩ : Shape).Idx → α)
    (h₁ : (⟨1, ![n]⟩ : Shape).ShapeCasts ⟨2, ![1, n]⟩)
    (h₂ : (⟨1, ![n]⟩ : Shape).BroadcastsInDim ⟨2, ![1, n]⟩ ![1]) :
    shapeCast ⟨2, ![1, n]⟩ x h₁ = broadcastInDim ⟨2, ![1, n]⟩ ![1] h₂ x := by
  funext j
  obtain ⟨u, i, rfl⟩ : ∃ (u : Fin 1) (i : Fin n), j = ix2 u i := ⟨j 0, j 1, eq_ix2 j⟩
  -- the reshape at (u, i) is x at i
  rw [shapeCast_a_1a_apply x h₁ u i]
  -- the broadcast at (u, i) is x at i: the vector's only axis goes to axis 1
  refine (broadcastInDim_apply ![1] h₂ x (ix2 u i) (ix1 i) ?_).symm
  intro a
  match a with
  | ⟨0, _⟩ =>
    show i.val = if n = 1 then 0 else i.val
    split
    · have := i.isLt; omega
    · rfl

/-- The same at an element type of a float instance: a float vector of `n` entries reshaped to `1 × n` is its
    broadcast along axis 1. -/
theorem shapeCast_row_eq_broadcastInDim_fvec {F : FTy → Type} {φ : FTy} {n : Nat} (x : FVec F ⟨1, ![n]⟩ φ)
    (h₁ : (⟨1, ![n]⟩ : Shape).ShapeCasts ⟨2, ![1, n]⟩)
    (h₂ : (⟨1, ![n]⟩ : Shape).BroadcastsInDim ⟨2, ![1, n]⟩ ![1]) :
    shapeCast ⟨2, ![1, n]⟩ x h₁ = broadcastInDim ⟨2, ![1, n]⟩ ![1] h₂ x :=
  shapeCast_row_eq_broadcastInDim x h₁ h₂

end Idealize.ShloMosaic
-- ==== Proof.Stretch.lean ====
/-
  The host operations between the kernel program's regions, read at the buffers the regions take.

  Before each region the program computes, on the host, the mean aggregation of the current features over the incoming edges
  and reshapes the layer's bias vector to a 1 × 128 row; everything else it leaves alone. The first stretch also extracts the
  two rows of the endpoint table, which the later stretches read again. Each lemma is over ANY contents `W` at the stretch's
  entry: the aggregated features are `agg` of the entry's features and endpoints, the bias row is the bias vector as a row, and
  a buffer no operation of the stretch writes holds what it held.
-/
import proofs.«163306_j17205638988431_1_alg».proof.Proof.Gen.KernelIdeal.Launch
import proofs.«163306_j17205638988431_1_alg».proof.Proof.Spec
import proofs.«163306_j17205638988431_1_alg».proof.Proof.LibReshapeRow
import Idealize.ShloMosaic.Lib.StableHlo.Run

set_option maxRecDepth 16384

noncomputable section

namespace Cert.Sage.Stretch

open Cert.KernelIdeal Cert.KernelIdeal.Gen Idealize.ShloMosaic Idealize.ShloMosaic.TcCoe Idealize.ShloMosaic.StableHlo
open Idealize.SL.Sem

variable (W : Valuation τ sig (Elt Ideal))

/-! ## The first stretch: the endpoints, the first aggregation, the first bias row -/

/-- The source endpoints: row 0 of the endpoint table. -/
theorem s0_src : StableHlo.after (hostOps0 (F := Ideal)) W (Proc.devRef .tc main_v1)
    = Cert.Sage.srcOf (F := Ideal) (W (Proc.devRef .tc main_arg1)) := by
  after_results
  rfl

/-- The destination endpoints: row 1 of the endpoint table. -/
theorem s0_dst : StableHlo.after (hostOps0 (F := Ideal)) W (Proc.devRef .tc main_v3)
    = Cert.Sage.dstOf (F := Ideal) (W (Proc.devRef .tc main_arg1)) := by
  after_results
  rfl

set_option maxHeartbeats 4000000 in
/-- The aggregated input features. -/
theorem s0_mean : StableHlo.after (hostOps0 (F := Ideal)) W (Proc.devRef .tc main_v22)
    = Cert.Sage.agg (F := Ideal) (W (Proc.devRef .tc main_arg0)) (Cert.Sage.srcOf (F := Ideal) (W (Proc.devRef .tc main_arg1)))
        (Cert.Sage.dstOf (F := Ideal) (W (Proc.devRef .tc main_arg1))) := by
  after_results_simp
  all_goals rfl

/-- The first bias as a row. -/
theorem s0_bias : StableHlo.after (hostOps0 (F := Ideal)) W (Proc.devRef .tc main_v23)
    = Cert.Sage.biasRow (F := Ideal) (W (Proc.devRef .tc main_arg4)) := by
  after_results
  exact shapeCast_row_eq_broadcastInDim_fvec (F := Ideal) (φ := .f32) (n := 128) _ _ _

theorem s0_keep_main_arg0 : StableHlo.after (hostOps0 (F := Ideal)) W (Proc.devRef .tc main_arg0) = W (Proc.devRef .tc main_arg0) := by
  after_results
theorem s0_keep_main_arg1 : StableHlo.after (hostOps0 (F := Ideal)) W (Proc.devRef .tc main_arg1) = W (Proc.devRef .tc main_arg1) := by
  after_results
theorem s0_keep_main_arg2 : StableHlo.after (hostOps0 (F := Ideal)) W (Proc.devRef .tc main_arg2) = W (Proc.devRef .tc main_arg2) := by
  after_results
theorem s0_keep_main_arg3 : StableHlo.after (hostOps0 (F := Ideal)) W (Proc.devRef .tc main_arg3) = W (Proc.devRef .tc main_arg3) := by
  after_results
theorem s0_keep_main_arg5 : StableHlo.after (hostOps0 (F := Ideal)) W (Proc.devRef .tc main_arg5) = W (Proc.devRef .tc main_arg5) := by
  after_results
theorem s0_keep_main_arg6 : StableHlo.after (hostOps0 (F := Ideal)) W (Proc.devRef .tc main_arg6) = W (Proc.devRef .tc main_arg6) := by
  after_results
theorem s0_keep_main_arg7 : StableHlo.after (hostOps0 (F := Ideal)) W (Proc.devRef .tc main_arg7) = W (Proc.devRef .tc main_arg7) := by
  after_results
theorem s0_keep_main_arg8 : StableHlo.after (hostOps0 (F := Ideal)) W (Proc.devRef .tc main_arg8) = W (Proc.devRef .tc main_arg8) := by
  after_results
theorem s0_keep_main_arg9 : StableHlo.after (hostOps0 (F := Ideal)) W (Proc.devRef .tc main_arg9) = W (Proc.devRef .tc main_arg9) := by
  after_results
theorem s0_keep_main_arg10 : StableHlo.after (hostOps0 (F := Ideal)) W (Proc.devRef .tc main_arg10) = W (Proc.devRef .tc main_arg10) := by
  after_results

/-! ## Stretch 1: the aggregation of the previous region's output, the next bias row -/

set_option maxHeartbeats 4000000 in
/-- The aggregated features: `agg` of the previous region's output and the endpoints. -/
theorem s1_mean : StableHlo.after (hostOps1 (F := Ideal)) W (Proc.devRef .tc main_v43)
    = Cert.Sage.agg (F := Ideal) (W (Proc.devRef .tc main_v24)) (W (Proc.devRef .tc main_v1)) (W (Proc.devRef .tc main_v3)) := by
  after_results_simp
  all_goals rfl

/-- The layer's bias as a row. -/
theorem s1_bias : StableHlo.after (hostOps1 (F := Ideal)) W (Proc.devRef .tc main_v44)
    = Cert.Sage.biasRow (F := Ideal) (W (Proc.devRef .tc main_arg7)) := by
  after_results
  exact shapeCast_row_eq_broadcastInDim_fvec (F := Ideal) (φ := .f32) (n := 128) _ _ _

theorem s1_keep_main_v24 : StableHlo.after (hostOps1 (F := Ideal)) W (Proc.devRef .tc main_v24) = W (Proc.devRef .tc main_v24) := by
  after_results
theorem s1_keep_main_v1 : StableHlo.after (hostOps1 (F := Ideal)) W (Proc.devRef .tc main_v1) = W (Proc.devRef .tc main_v1) := by
  after_results
theorem s1_keep_main_v3 : StableHlo.after (hostOps1 (F := Ideal)) W (Proc.devRef .tc main_v3) = W (Proc.devRef .tc main_v3) := by
  after_results
theorem s1_keep_main_arg5 : StableHlo.after (hostOps1 (F := Ideal)) W (Proc.devRef .tc main_arg5) = W (Proc.devRef .tc main_arg5) := by
  after_results
theorem s1_keep_main_arg6 : StableHlo.after (hostOps1 (F := Ideal)) W (Proc.devRef .tc main_arg6) = W (Proc.devRef .tc main_arg6) := by
  after_results
theorem s1_keep_main_arg8 : StableHlo.after (hostOps1 (F := Ideal)) W (Proc.devRef .tc main_arg8) = W (Proc.devRef .tc main_arg8) := by
  after_results
theorem s1_keep_main_arg9 : StableHlo.after (hostOps1 (F := Ideal)) W (Proc.devRef .tc main_arg9) = W (Proc.devRef .tc main_arg9) := by
  after_results
theorem s1_keep_main_arg10 : StableHlo.after (hostOps1 (F := Ideal)) W (Proc.devRef .tc main_arg10) = W (Proc.devRef .tc main_arg10) := by
  after_results

/-! ## Stretch 2: the aggregation of the previous region's output, the next bias row -/

set_option maxHeartbeats 4000000 in
/-- The aggregated features: `agg` of the previous region's output and the endpoints. -/
theorem s2_mean : StableHlo.after (hostOps2 (F := Ideal)) W (Proc.devRef .tc main_v64)
    = Cert.Sage.agg (F := Ideal) (W (Proc.devRef .tc main_v45)) (W (Proc.devRef .tc main_v1)) (W (Proc.devRef .tc main_v3)) := by
  after_results_simp
  all_goals rfl

/-- The layer's bias as a row. -/
theorem s2_bias : StableHlo.after (hostOps2 (F := Ideal)) W (Proc.devRef .tc main_v65)
    = Cert.Sage.biasRow (F := Ideal) (W (Proc.devRef .tc main_arg10)) := by
  after_results
  exact shapeCast_row_eq_broadcastInDim_fvec (F := Ideal) (φ := .f32) (n := 128) _ _ _

theorem s2_keep_main_v45 : StableHlo.after (hostOps2 (F := Ideal)) W (Proc.devRef .tc main_v45) = W (Proc.devRef .tc main_v45) := by
  after_results
theorem s2_keep_main_arg8 : StableHlo.after (hostOps2 (F := Ideal)) W (Proc.devRef .tc main_arg8) = W (Proc.devRef .tc main_arg8) := by
  after_results
theorem s2_keep_main_arg9 : StableHlo.after (hostOps2 (F := Ideal)) W (Proc.devRef .tc main_arg9) = W (Proc.devRef .tc main_arg9) := by
  after_results

end Cert.Sage.Stretch

end
-- ==== Proof.KernelValue.lean ====
/-
  The kernel program's result as the three-layer network of the argument arrays.

  The program alternates host stretches and regions. Walking the buffer contents from the launch memory to the last
  region's exit: the first stretch aggregates the input features and reshapes the first bias; region 0 leaves the first
  layer's output, `max(·, 0)` applied; the second stretch aggregates THAT and reshapes the second bias; region 1 leaves the
  second layer's output; the third stretch and region 2 do the same for the third layer. No stretch or region writes a
  buffer a later one reads except its own result, so the endpoints and the later layers' weights reach each stage as launched.
-/
import proofs.«163306_j17205638988431_1_alg».proof.Proof.FrameResult
import proofs.«163306_j17205638988431_1_alg».proof.Proof.Region0
import proofs.«163306_j17205638988431_1_alg».proof.Proof.Region1
import proofs.«163306_j17205638988431_1_alg».proof.Proof.Region2
import proofs.«163306_j17205638988431_1_alg».proof.Proof.Stretch

set_option maxRecDepth 16384

noncomputable section

namespace Cert.Sage.Kernel

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first layer's output with `max(·, 0)` applied, of the launch contents. -/
abbrev feat1 (c : Dev nD) : Cert.ReferenceIdeal.S50000x128.Idx → Elt Ideal .f32 :=
  Cert.Sage.relu (F := Ideal) (Cert.Sage.layer (F := Ideal) (m ((c : Thread nD τ).loc main_arg0)) (m ((c : Thread nD τ).loc main_arg1)) (m ((c : Thread nD τ).loc main_arg2)) (m ((c : Thread nD τ).loc main_arg3)) (m ((c : Thread nD τ).loc main_arg4)))

/-- The second layer's output. -/
abbrev feat2 (c : Dev nD) : Cert.ReferenceIdeal.S50000x128.Idx → Elt Ideal .f32 :=
  Cert.Sage.layer (F := Ideal) (feat1 m c) (m ((c : Thread nD τ).loc main_arg1)) (m ((c : Thread nD τ).loc main_arg5)) (m ((c : Thread nD τ).loc main_arg6)) (m ((c : Thread nD τ).loc main_arg7))

/-! ## Region 0's entry: after the first stretch -/

theorem L1_main_arg0 (c : Dev nD) : W1 m ρ c (Proc.devRef .tc main_arg0) = m ((c : Thread nD τ).loc main_arg0) := Stretch.s0_keep_main_arg0 (W0 m ρ c)
theorem L1_main_arg2 (c : Dev nD) : W1 m ρ c (Proc.devRef .tc main_arg2) = m ((c : Thread nD τ).loc main_arg2) := Stretch.s0_keep_main_arg2 (W0 m ρ c)
theorem L1_main_arg3 (c : Dev nD) : W1 m ρ c (Proc.devRef .tc main_arg3) = m ((c : Thread nD τ).loc main_arg3) := Stretch.s0_keep_main_arg3 (W0 m ρ c)
theorem L1_main_arg5 (c : Dev nD) : W1 m ρ c (Proc.devRef .tc main_arg5) = m ((c : Thread nD τ).loc main_arg5) := Stretch.s0_keep_main_arg5 (W0 m ρ c)
theorem L1_main_arg6 (c : Dev nD) : W1 m ρ c (Proc.devRef .tc main_arg6) = m ((c : Thread nD τ).loc main_arg6) := Stretch.s0_keep_main_arg6 (W0 m ρ c)
theorem L1_main_arg7 (c : Dev nD) : W1 m ρ c (Proc.devRef .tc main_arg7) = m ((c : Thread nD τ).loc main_arg7) := Stretch.s0_keep_main_arg7 (W0 m ρ c)
theorem L1_main_arg8 (c : Dev nD) : W1 m ρ c (Proc.devRef .tc main_arg8) = m ((c : Thread nD τ).loc main_arg8) := Stretch.s0_keep_main_arg8 (W0 m ρ c)
theorem L1_main_arg9 (c : Dev nD) : W1 m ρ c (Proc.devRef .tc main_arg9) = m ((c : Thread nD τ).loc main_arg9) := Stretch.s0_keep_main_arg9 (W0 m ρ c)
theorem L1_main_arg10 (c : Dev nD) : W1 m ρ c (Proc.devRef .tc main_arg10) = m ((c : Thread nD τ).loc main_arg10) := Stretch.s0_keep_main_arg10 (W0 m ρ c)
theorem L1_main_v1 (c : Dev nD) : W1 m ρ c (Proc.devRef .tc main_v1) = (Cert.Sage.srcOf (F := Ideal) (m ((c : Thread nD τ).loc main_arg1))) := Stretch.s0_src (W0 m ρ c)
theorem L1_main_v3 (c : Dev nD) : W1 m ρ c (Proc.devRef .tc main_v3) = (Cert.Sage.dstOf (F := Ideal) (m ((c : Thread nD τ).loc main_arg1))) := Stretch.s0_dst (W0 m ρ c)
theorem L1_main_v22 (c : Dev nD) : W1 m ρ c (Proc.devRef .tc main_v22) = Cert.Sage.agg (F := Ideal) (m ((c : Thread nD τ).loc main_arg0)) (Cert.Sage.srcOf (F := Ideal) (m ((c : Thread nD τ).loc main_arg1))) (Cert.Sage.dstOf (F := Ideal) (m ((c : Thread nD τ).loc main_arg1))) := Stretch.s0_mean (W0 m ρ c)
theorem L1_main_v23 (c : Dev nD) : W1 m ρ c (Proc.devRef .tc main_v23) = Cert.Sage.biasRow (F := Ideal) (m ((c : Thread nD τ).loc main_arg4)) := Stretch.s0_bias (W0 m ρ c)

/-! ## Region 0's exit -/

/-- Region 0 leaves the first layer's output, `max(·, 0)` applied. -/
theorem L2_main_v24 (c : Dev nD) : W2 m ρ c (Proc.devRef .tc main_v24) = feat1 m c := by
  refine (W2_arr m ρ c 5).trans ((Region0.final (V1 m ρ) c).trans ?_)
  show Cert.Sage.relu (F := Ideal) (Cert.Sage.dense2 (F := Ideal) (W1 m ρ c (Proc.devRef .tc main_v22)) (W1 m ρ c (Proc.devRef .tc main_arg0)) (W1 m ρ c (Proc.devRef .tc main_arg2)) (W1 m ρ c (Proc.devRef .tc main_arg3)) (W1 m ρ c (Proc.devRef .tc main_v23))) = _
  rw [L1_main_v22, L1_main_arg0, L1_main_arg2, L1_main_arg3, L1_main_v23]
  rfl
theorem L2_main_v1 (c : Dev nD) : W2 m ρ c (Proc.devRef .tc main_v1) = (Cert.Sage.srcOf (F := Ideal) (m ((c : Thread nD τ).loc main_arg1))) := (W2_of_ne m ρ c main_v1 (by decide)).trans (L1_main_v1 m ρ c)
theorem L2_main_v3 (c : Dev nD) : W2 m ρ c (Proc.devRef .tc main_v3) = (Cert.Sage.dstOf (F := Ideal) (m ((c : Thread nD τ).loc main_arg1))) := (W2_of_ne m ρ c main_v3 (by decide)).trans (L1_main_v3 m ρ c)
theorem L2_main_arg5 (c : Dev nD) : W2 m ρ c (Proc.devRef .tc main_arg5) = m ((c : Thread nD τ).loc main_arg5) := (W2_of_ne m ρ c main_arg5 (by decide)).trans (L1_main_arg5 m ρ c)
theorem L2_main_arg6 (c : Dev nD) : W2 m ρ c (Proc.devRef .tc main_arg6) = m ((c : Thread nD τ).loc main_arg6) := (W2_of_ne m ρ c main_arg6 (by decide)).trans (L1_main_arg6 m ρ c)
theorem L2_main_arg7 (c : Dev nD) : W2 m ρ c (Proc.devRef .tc main_arg7) = m ((c : Thread nD τ).loc main_arg7) := (W2_of_ne m ρ c main_arg7 (by decide)).trans (L1_main_arg7 m ρ c)
theorem L2_main_arg8 (c : Dev nD) : W2 m ρ c (Proc.devRef .tc main_arg8) = m ((c : Thread nD τ).loc main_arg8) := (W2_of_ne m ρ c main_arg8 (by decide)).trans (L1_main_arg8 m ρ c)
theorem L2_main_arg9 (c : Dev nD) : W2 m ρ c (Proc.devRef .tc main_arg9) = m ((c : Thread nD τ).loc main_arg9) := (W2_of_ne m ρ c main_arg9 (by decide)).trans (L1_main_arg9 m ρ c)
theorem L2_main_arg10 (c : Dev nD) : W2 m ρ c (Proc.devRef .tc main_arg10) = m ((c : Thread nD τ).loc main_arg10) := (W2_of_ne m ρ c main_arg10 (by decide)).trans (L1_main_arg10 m ρ c)

/-! ## Region 1's entry: after the second stretch -/

theorem L3_main_v43 (c : Dev nD) : W3 m ρ c (Proc.devRef .tc main_v43) = Cert.Sage.agg (F := Ideal) (feat1 m c) (Cert.Sage.srcOf (F := Ideal) (m ((c : Thread nD τ).loc main_arg1))) (Cert.Sage.dstOf (F := Ideal) (m ((c : Thread nD τ).loc main_arg1))) := by
  refine (Stretch.s1_mean (W2 m ρ c)).trans ?_
  rw [L2_main_v24, L2_main_v1, L2_main_v3]
theorem L3_main_v44 (c : Dev nD) : W3 m ρ c (Proc.devRef .tc main_v44) = Cert.Sage.biasRow (F := Ideal) (m ((c : Thread nD τ).loc main_arg7)) := by
  refine (Stretch.s1_bias (W2 m ρ c)).trans ?_
  rw [L2_main_arg7]
theorem L3_main_v24 (c : Dev nD) : W3 m ρ c (Proc.devRef .tc main_v24) = feat1 m c := (Stretch.s1_keep_main_v24 (W2 m ρ c)).trans (L2_main_v24 m ρ c)
theorem L3_main_v1 (c : Dev nD) : W3 m ρ c (Proc.devRef .tc main_v1) = (Cert.Sage.srcOf (F := Ideal) (m ((c : Thread nD τ).loc main_arg1))) := (Stretch.s1_keep_main_v1 (W2 m ρ c)).trans (L2_main_v1 m ρ c)
theorem L3_main_v3 (c : Dev nD) : W3 m ρ c (Proc.devRef .tc main_v3) = (Cert.Sage.dstOf (F := Ideal) (m ((c : Thread nD τ).loc main_arg1))) := (Stretch.s1_keep_main_v3 (W2 m ρ c)).trans (L2_main_v3 m ρ c)
theorem L3_main_arg5 (c : Dev nD) : W3 m ρ c (Proc.devRef .tc main_arg5) = m ((c : Thread nD τ).loc main_arg5) := (Stretch.s1_keep_main_arg5 (W2 m ρ c)).trans (L2_main_arg5 m ρ c)
theorem L3_main_arg6 (c : Dev nD) : W3 m ρ c (Proc.devRef .tc main_arg6) = m ((c : Thread nD τ).loc main_arg6) := (Stretch.s1_keep_main_arg6 (W2 m ρ c)).trans (L2_main_arg6 m ρ c)
theorem L3_main_arg8 (c : Dev nD) : W3 m ρ c (Proc.devRef .tc main_arg8) = m ((c : Thread nD τ).loc main_arg8) := (Stretch.s1_keep_main_arg8 (W2 m ρ c)).trans (L2_main_arg8 m ρ c)
theorem L3_main_arg9 (c : Dev nD) : W3 m ρ c (Proc.devRef .tc main_arg9) = m ((c : Thread nD τ).loc main_arg9) := (Stretch.s1_keep_main_arg9 (W2 m ρ c)).trans (L2_main_arg9 m ρ c)
theorem L3_main_arg10 (c : Dev nD) : W3 m ρ c (Proc.devRef .tc main_arg10) = m ((c : Thread nD τ).loc main_arg10) := (Stretch.s1_keep_main_arg10 (W2 m ρ c)).trans (L2_main_arg10 m ρ c)

/-! ## Region 1's exit -/

/-- Region 1 leaves the second layer's output. -/
theorem L4_main_v45 (c : Dev nD) : W4 m ρ c (Proc.devRef .tc main_v45) = feat2 m c := by
  refine (W4_arr m ρ c 5).trans ((Region1.final (V3 m ρ) c).trans ?_)
  show Cert.Sage.dense2 (F := Ideal) (W3 m ρ c (Proc.devRef .tc main_v43)) (W3 m ρ c (Proc.devRef .tc main_v24)) (W3 m ρ c (Proc.devRef .tc main_arg5)) (W3 m ρ c (Proc.devRef .tc main_arg6)) (W3 m ρ c (Proc.devRef .tc main_v44)) = _
  rw [L3_main_v43, L3_main_v24, L3_main_arg5, L3_main_arg6, L3_main_v44]
  rfl
theorem L4_main_v1 (c : Dev nD) : W4 m ρ c (Proc.devRef .tc main_v1) = (Cert.Sage.srcOf (F := Ideal) (m ((c : Thread nD τ).loc main_arg1))) := (W4_of_ne m ρ c main_v1 (by decide)).trans (L3_main_v1 m ρ c)
theorem L4_main_v3 (c : Dev nD) : W4 m ρ c (Proc.devRef .tc main_v3) = (Cert.Sage.dstOf (F := Ideal) (m ((c : Thread nD τ).loc main_arg1))) := (W4_of_ne m ρ c main_v3 (by decide)).trans (L3_main_v3 m ρ c)
theorem L4_main_arg8 (c : Dev nD) : W4 m ρ c (Proc.devRef .tc main_arg8) = m ((c : Thread nD τ).loc main_arg8) := (W4_of_ne m ρ c main_arg8 (by decide)).trans (L3_main_arg8 m ρ c)
theorem L4_main_arg9 (c : Dev nD) : W4 m ρ c (Proc.devRef .tc main_arg9) = m ((c : Thread nD τ).loc main_arg9) := (W4_of_ne m ρ c main_arg9 (by decide)).trans (L3_main_arg9 m ρ c)
theorem L4_main_arg10 (c : Dev nD) : W4 m ρ c (Proc.devRef .tc main_arg10) = m ((c : Thread nD τ).loc main_arg10) := (W4_of_ne m ρ c main_arg10 (by decide)).trans (L3_main_arg10 m ρ c)

/-! ## Region 2's entry: after the third stretch -/

theorem L5_main_v64 (c : Dev nD) : W5 m ρ c (Proc.devRef .tc main_v64) = Cert.Sage.agg (F := Ideal) (feat2 m c) (Cert.Sage.srcOf (F := Ideal) (m ((c : Thread nD τ).loc main_arg1))) (Cert.Sage.dstOf (F := Ideal) (m ((c : Thread nD τ).loc main_arg1))) := by
  refine (Stretch.s2_mean (W4 m ρ c)).trans ?_
  rw [L4_main_v45, L4_main_v1, L4_main_v3]
theorem L5_main_v65 (c : Dev nD) : W5 m ρ c (Proc.devRef .tc main_v65) = Cert.Sage.biasRow (F := Ideal) (m ((c : Thread nD τ).loc main_arg10)) := by
  refine (Stretch.s2_bias (W4 m ρ c)).trans ?_
  rw [L4_main_arg10]
theorem L5_main_v45 (c : Dev nD) : W5 m ρ c (Proc.devRef .tc main_v45) = feat2 m c := (Stretch.s2_keep_main_v45 (W4 m ρ c)).trans (L4_main_v45 m ρ c)
theorem L5_main_arg8 (c : Dev nD) : W5 m ρ c (Proc.devRef .tc main_arg8) = m ((c : Thread nD τ).loc main_arg8) := (Stretch.s2_keep_main_arg8 (W4 m ρ c)).trans (L4_main_arg8 m ρ c)
theorem L5_main_arg9 (c : Dev nD) : W5 m ρ c (Proc.devRef .tc main_arg9) = m ((c : Thread nD τ).loc main_arg9) := (Stretch.s2_keep_main_arg9 (W4 m ρ c)).trans (L4_main_arg9 m ρ c)

/-! ## The result -/

/-- THE KERNEL PROGRAM'S RESULT: region 2 leaves the third layer's output, which is the network of the launch contents. -/
theorem result (c : Dev nD) : W6 m ρ c (Proc.devRef .tc main_v66) = Cert.Sage.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ((Region2.final (V5 m ρ) c).trans ?_)
  show Cert.Sage.dense2 (F := Ideal) (W5 m ρ c (Proc.devRef .tc main_v64)) (W5 m ρ c (Proc.devRef .tc main_v45)) (W5 m ρ c (Proc.devRef .tc main_arg8)) (W5 m ρ c (Proc.devRef .tc main_arg9)) (W5 m ρ c (Proc.devRef .tc main_v65)) = _
  rw [L5_main_v64, L5_main_v45, L5_main_arg8, L5_main_arg9, L5_main_v65]
  rfl

/-- The kernel program's run with its result named: every weakly fair execution terminates, nothing faulting, with the result
    buffer at the network of the launch contents and the arguments as launched. -/
theorem run : θ_run defs (onTc (τ := τ) (main (F := Ideal))) ⟨m, fun _ => 0, ρ⟩ (fun r => ∀ c : Dev nD,
      r.2.mem ((c.tc : Thread nD τ).loc main_v66) = Cert.Sage.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (Cert.KernelIdeal.GenP.run_result m ρ)

end Cert.Sage.Kernel

end
-- ==== Proof.RefValue.lean ====
/-
  The reference program's result as the three-layer network of the argument arrays.

  The reference applies, per layer, the same aggregation and then `mean · Wlᵀ + h · Wrᵀ + b` as two host matrix products, a sum
  and a broadcast bias, with `max(·, 0)` after the first layer: its composed term is the network's definition unfolded.
-/
import proofs.«163306_j17205638988431_1_alg».proof.Proof.Gen.ReferenceIdeal.Run
import proofs.«163306_j17205638988431_1_alg».proof.Proof.Spec

set_option maxRecDepth 16384

noncomputable section

namespace Cert.Sage.Reference

open Cert.ReferenceIdeal Cert.ReferenceIdeal.Gen Idealize.ShloMosaic Idealize.ShloMosaic.TcCoe Idealize.SL.Sem

/-- The reference's composed term is the network of the launch contents. -/
theorem result (m : (ℓ : Loc nD τ sig) → Buf (Elt Ideal) ℓ) (c : Dev nD) :
    Cert.ReferenceIdeal.Value.res_main_v85 (F := Ideal) m c = Cert.Sage.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v85
  rfl

end Cert.Sage.Reference

end
-- ==== Proof.Claims.lean ====
/-
  The five claims.

  Both idealized programs compute, on the extended reals, the same three-layer network of the argument arrays
  (`Cert.Sage.net`): a layer is `mean(h) · Wlᵀ + h · Wrᵀ + b` with `mean` the average over incoming edges, and the first layer
  is followed by `max(·, 0)`. The kernel program computes the dense part of each layer in a region, block of 5000 rows by
  block, as two products into zero accumulators; the reference as two host products. Entry by entry both are the same
  sums `Σₖ mean[r, k] · Wl[c, k] + Σₖ h[r, k] · Wr[c, k] + b[c]`, in the same grouping, so no law beyond reading both at
  an index is needed and the precondition is never opened. The aggregation is the same host computation on both sides.
  The idealization rewrote nothing in the kernel program, so it is preserved trivially.
-/
import proofs.«163306_j17205638988431_1_alg».proof.Defs
import proofs.«163306_j17205638988431_1_alg».proof.Proof.Gen.Kernel.Frame
import proofs.«163306_j17205638988431_1_alg».proof.Proof.Gen.KernelIdeal.Frame
import proofs.«163306_j17205638988431_1_alg».proof.Proof.Gen.ReferenceIdeal.Run
import proofs.«163306_j17205638988431_1_alg».proof.Proof.Gen.Pre_finite_inputs
import proofs.«163306_j17205638988431_1_alg».proof.Proof.KernelValue
import proofs.«163306_j17205638988431_1_alg».proof.Proof.RefValue

noncomputable section

namespace Cert.Proof.Claims

open Idealize.ShloMosaic Idealize.ShloMosaic.TcCoe Idealize.SL.Sem

/-- The kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories agreeing on the arguments both programs end with the network of those arguments in their result. -/
theorem algebraic : Cert.algebraic_KernelIdeal_ReferenceIdeal := by
  intro m ρ m' ρ' _ hagree
  refine ⟨_, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.Sage.Reference.result, e0, e1, e2, e3, e4, e5, e6, e7, e8, e9, e10]

end Cert.Proof.Claims

end
-- ==== Proof.lean ====
/-
  `Cert.Claim` for a three-layer graph convolution with mean aggregation (50000 nodes, 600000 edges, 128 features): the
  kernel program — the aggregation on the host, the dense part of each layer in a region over ten blocks of 5000 rows —
  against the plain reference. On the extended reals both results are the same function of the arguments, entry by
  entry (Proof/Claims.lean states the five claims; Proof/Spec.lean the function; Proof/Region0…2.lean what each region
  leaves; Proof/Stretch.lean the host operations between them; Proof/KernelValue.lean and Proof/RefValue.lean the two
  programs' results).
-/
import proofs.«163306_j17205638988431_1_alg».proof.Defs
import proofs.«163306_j17205638988431_1_alg».proof.Proof.Gen.Kernel
import proofs.«163306_j17205638988431_1_alg».proof.Proof.Gen.KernelIdeal
import proofs.«163306_j17205638988431_1_alg».proof.Proof.Gen.ReferenceIdeal
import proofs.«163306_j17205638988431_1_alg».proof.Proof.Gen.Pre_finite_inputs
import proofs.«163306_j17205638988431_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
